-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S4096x2 : Shape := ⟨2, ![4096, 2]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S32768x2 .f32) (main_arg1 : FVec F S4096x2 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  main_v8
-- ==== Kernel.lean ====
abbrev S32768x2 : Shape := ⟨2, ![32768, 2]⟩
abbrev S4096x2 : Shape := ⟨2, ![4096, 2]⟩
abbrev S2x4096 : Shape := ⟨2, ![2, 4096]⟩
abbrev S32768x3 : Shape := ⟨2, ![32768, 3]⟩
abbrev S512x2 : Shape := ⟨2, ![512, 2]⟩
abbrev S512x3 : Shape := ⟨2, ![512, 3]⟩
abbrev S512x1 : Shape := ⟨2, ![512, 1]⟩
abbrev S2x1024 : Shape := ⟨2, ![2, 1024]⟩
abbrev S1x1024 : Shape := ⟨2, ![1, 1024]⟩
abbrev S512x1024 : Shape := ⟨2, ![512, 1024]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S32768x2, .f32⟩
  | .hbm, ⟨1, _⟩ => ⟨S4096x2, .f32⟩
  | .hbm, ⟨2, _⟩ => ⟨S2x4096, .f32⟩
  | .hbm, ⟨3, _⟩ => ⟨S32768x3, .f32⟩
  | .local _ .vmem, ⟨0, _⟩ => ⟨S512x2, .f32⟩
  | .local _ .vmem, ⟨1, _⟩ => ⟨S512x2, .f32⟩
  | .local _ .vmem, ⟨2, _⟩ => ⟨S2x4096, .f32⟩
  | .local _ .vmem, ⟨3, _⟩ => ⟨S512x3, .f32⟩
  | .local _ .vmem, ⟨4, _⟩ => ⟨S512x3, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c1024_i32 : BitVec 32 := 1024#32
  let v4 : BitVec 32 := Scalar.muli c0_i32 c1024_i32
  v4
def k0_off1 (c0_i32 : BitVec 32) : Fin 2 → Nat :=
  let c0_1 : Index := 0#32
  let c1024_i32 : BitVec 32 := 1024#32
  let v4 : BitVec 32 := Scalar.muli c0_i32 c1024_i32
  let v5 : BitVec 32 := v4
  let v6 : Index := Scalar.indexCast v5
  ![0, v6.toNat]
def k0_mult2 : BitVec 32 :=
  let c1_i32 : BitVec 32 := 1#32
  let c1024_i32_3 : BitVec 32 := 1024#32
  let v23 : BitVec 32 := Scalar.muli c1_i32 c1024_i32_3
  v23
def k0_mult3 : BitVec 32 :=
  let c2_i32 : BitVec 32 := 2#32
  let c1024_i32_6 : BitVec 32 := 1024#32
  let v42 : BitVec 32 := Scalar.muli c2_i32 c1024_i32_6
  v42
def k0_mult4 : BitVec 32 :=
  let c3_i32 : BitVec 32 := 3#32
  let c1024_i32_9 : BitVec 32 := 1024#32
  let v61 : BitVec 32 := Scalar.muli c3_i32 c1024_i32_9
  v61
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4096x2_S2x4096_1_0 : S4096x2.Transposes [1, 0] S2x4096
  inb_S512x2_S512x2_0_0 : ∀ a, (![0, 0] : Fin 2 → Nat) a + S512x2.size a ≤ S512x2.size a
  h_S512x2 : 0 < S512x2.numel
  slices_S512x2_o0_0_S512x1 : S512x2.Slices ![0, 0] S512x1
  slices_S512x2_o0_1_S512x1 : S512x2.Slices ![0, 1] S512x1
  h_S2x1024 : 0 < S2x1024.numel
  shapeCasts_S2x1024_S2x1024 : S2x1024.ShapeCasts S2x1024
  slices_S2x1024_o0_0_S1x1024 : S2x1024.Slices ![0, 0] S1x1024
  slices_S2x1024_o1_0_S1x1024 : S2x1024.Slices ![1, 0] S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  inb_S512x3_S512x2_0_0 : ∀ a, (![0, 0] : Fin 2 → Nat) a + S512x2.size a ≤ S512x3.size a
  inb_S512x3_S512x1_0_2 : ∀ a, (![0, 2] : Fin 2 → Nat) a + S512x1.size a ≤ S512x3.size a
  h_S512x1 : 0 < S512x1.numel
  hrank0 : 0 < grid0.rank
  k0_mult1_dvd : 1024 ∣ k0_mult1.toNat
  k0_off1_inb : ∀ (r : Fin 4), ∀ a, (k0_off1 (BitVec.ofNat 32 r.val)) a + S2x1024.size a ≤ S2x4096.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S32768x2.size a
  hwx0_0 : ∀ i : grid0.Coords, EltTy.bits .f32 = 32 ∨ (Rect.block (s := S32768x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4096.size a ≤ S2x4096.size a
  hwx0_1 : ∀ i : grid0.Coords, EltTy.bits .f32 = 32 ∨ (Rect.block (s := S2x4096) S2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S32768x3.size a
  hwx0_2 : ∀ i : grid0.Coords, EltTy.bits .f32 = 32 ∨ (Rect.block (s := S32768x3) S512x3.size (cc0_transform_2 i) (hinb0_2 i)).WholeWords (EltTy.packing .f32)

variable [Facts₀]

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2 : Shape := ⟨2, ![32768, 2]⟩
abbrev S4096x2 : Shape := ⟨2, ![4096, 2]⟩
abbrev S32768x1x2 : Shape := ⟨3, ![32768, 1, 2]⟩
abbrev S1x4096x2 : Shape := ⟨3, ![1, 4096, 2]⟩
abbrev S32768x4096x2 : Shape := ⟨3, ![32768, 4096, 2]⟩
abbrev S_ : Shape := ⟨0, ![]⟩
abbrev S32768x4096 : Shape := ⟨2, ![32768, 4096]⟩
abbrev S32768 : Shape := ⟨1, ![32768]⟩
abbrev S32768x1 : Shape := ⟨2, ![32768, 1]⟩
abbrev S32768x3 : Shape := ⟨2, ![32768, 3]⟩

abbrev nBuf : Space → Nat
  | .hbm => 15
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S4096x2, .f32⟩
  | .hbm, ⟨2, _⟩ => ⟨S32768x1x2, .f32⟩
  | .hbm, ⟨3, _⟩ => ⟨S1x4096x2, .f32⟩
  | .hbm, ⟨4, _⟩ => ⟨S32768x4096x2, .f32⟩
  | .hbm, ⟨5, _⟩ => ⟨S32768x4096x2, .f32⟩
  | .hbm, ⟨6, _⟩ => ⟨S32768x4096x2, .f32⟩
  | .hbm, ⟨7, _⟩ => ⟨S32768x4096x2, .f32⟩
  | .hbm, ⟨8, _⟩ => ⟨S_, .f32⟩
  | .hbm, ⟨9, _⟩ => ⟨S32768x4096, .f32⟩
  | .hbm, ⟨10, _⟩ => ⟨S32768x4096, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x3, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S32768x2_S32768x1x2_0_2 : S32768x2.BroadcastsInDim S32768x1x2 (![0, 2] : Fin 2 → Fin S32768x1x2.rank)
  bcast_S4096x2_S1x4096x2_1_2 : S4096x2.BroadcastsInDim S1x4096x2 (![1, 2] : Fin 2 → Fin S1x4096x2.rank)
  bcast_S32768x1x2_S32768x4096x2_0_1_2 : S32768x1x2.BroadcastsInDim S32768x4096x2 (![0, 1, 2] : Fin 3 → Fin S32768x4096x2.rank)
  bcast_S1x4096x2_S32768x4096x2_0_1_2 : S1x4096x2.BroadcastsInDim S32768x4096x2 (![0, 1, 2] : Fin 3 → Fin S32768x4096x2.rank)
  reducesTo_S32768x4096x2_S32768x4096_d2 : S32768x4096x2.ReducesTo [2] S32768x4096
  h_S_ : 0 < S_.numel
  reducesTo_S32768x4096_S32768_d1 : S32768x4096.ReducesTo [1] S32768
  bcast_S32768_S32768x1_0 : S32768.BroadcastsInDim S32768x1 (![0] : Fin 1 → Fin S32768x1.rank)
  concatenates_S32768x2_S32768x1_S32768x3_d1 : Shape.Concatenates [S32768x2, S32768x1] S32768x3 1

variable [Facts₀]

class Facts : Prop extends Facts₀ where

variable [Facts]
-- ==== Proof.LibSqrtMin.lean ====
/-
  General facts about the minimum and the square root on the extended reals.

  * The extended-real square root (bottom and the negative reals go to bottom, a real `r ≥ 0` to
    `√r`, top to top) is monotone on the whole line, so it commutes with the minimum of two values
    and with the minimum of a finite family started from top: the root of the least squared
    distance is the least distance.
  * The minimum of a family indexed by 4096 positions, started from top, may be taken in four
    consecutive runs of 1024 positions, each started from top, and the four results combined one
    after the other from top: an element is below both sides exactly when it is below every member
    of the family.
  * A lane minimum over one axis of a vector, and the host's minimum-reduction over one axis, are the
    minimum over that axis's coordinates started from the initial value.
  * The single-precision word `0x7F800000` denotes the top element.
-/
import Idealize.ShloMosaic.PureOps.Ideal
import Idealize.ShloMosaic.PureOps.Ideal.Laws

noncomputable section

namespace Cert.Nearest

open Idealize.ShloMosaic

/-- The extended-real square root is monotone on the whole line. -/
theorem sqrt_mono : Monotone Ideal.sqrt := by
  intro a b hab
  induction a using EReal.rec with
  | bot => rw [Ideal.sqrt_bot]; exact bot_le
  | top =>
    have hb : b = ⊤ := top_le_iff.mp hab
    subst hb; exact le_rfl
  | coe r =>
    induction b using EReal.rec with
    | bot => exact absurd hab (by simp)
    | top => rw [Ideal.sqrt_top]; exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- The root of the smaller of two values is the smaller of the two roots. -/
theorem sqrt_min (a b : EReal) : Ideal.sqrt (min a b) = min (Ideal.sqrt a) (Ideal.sqrt b) :=
  sqrt_mono.map_min

/-- The root of the minimum of a finite family (started from top) is the minimum of the roots. -/
theorem sqrt_fold_min {ι : Type} (s : Finset ι) (f : ι → EReal) :
    Ideal.sqrt (s.fold min ⊤ f) = s.fold min ⊤ (fun k => Ideal.sqrt (f k)) := by
  have h := Finset.fold_hom (op := min) (op' := min) (s := s) (b := (⊤ : EReal)) (f := f) (m := Ideal.sqrt) sqrt_min
  rw [Ideal.sqrt_top] at h
  exact h.symm

/-- The minimum over 4096 positions in four consecutive runs of 1024, combined one after the other
    from top, is the minimum over all 4096 positions. -/
theorem fold_min_four (f : Fin 4096 → EReal) (g0 g1 g2 g3 : Fin 1024 → EReal)
    (h0 : ∀ l : Fin 1024, g0 l = f ⟨l.val, by have := l.isLt; omega⟩)
    (h1 : ∀ l : Fin 1024, g1 l = f ⟨1024 + l.val, by have := l.isLt; omega⟩)
    (h2 : ∀ l : Fin 1024, g2 l = f ⟨2048 + l.val, by have := l.isLt; omega⟩)
    (h3 : ∀ l : Fin 1024, g3 l = f ⟨3072 + l.val, by have := l.isLt; omega⟩) :
    min (min (min (min ⊤ (Finset.univ.fold min ⊤ g0)) (Finset.univ.fold min ⊤ g1)) (Finset.univ.fold min ⊤ g2))
        (Finset.univ.fold min ⊤ g3)
      = Finset.univ.fold min ⊤ f := by
  apply le_antisymm
  · rw [Finset.le_fold_min]
    refine ⟨le_top, fun k _ => ?_⟩
    have hk := k.isLt
    by_cases c0 : k.val < 1024
    · refine le_trans (min_le_of_left_le (min_le_of_left_le (min_le_of_left_le (min_le_right _ _)))) ?_
      rw [Finset.fold_min_le]
      exact Or.inr ⟨⟨k.val, c0⟩, Finset.mem_univ _, le_of_eq (h0 _)⟩
    · by_cases c1 : k.val < 2048
      · refine le_trans (min_le_of_left_le (min_le_of_left_le (min_le_right _ _))) ?_
        rw [Finset.fold_min_le]
        refine Or.inr ⟨⟨k.val - 1024, by omega⟩, Finset.mem_univ _, le_of_eq ((h1 _).trans (congrArg f (Fin.ext ?_)))⟩
        show 1024 + (k.val - 1024) = k.val
        omega
      · by_cases c2 : k.val < 3072
        · refine le_trans (min_le_of_left_le (min_le_right _ _)) ?_
          rw [Finset.fold_min_le]
          refine Or.inr ⟨⟨k.val - 2048, by omega⟩, Finset.mem_univ _, le_of_eq ((h2 _).trans (congrArg f (Fin.ext ?_)))⟩
          show 2048 + (k.val - 2048) = k.val
          omega
        · refine le_trans (min_le_right _ _) ?_
          rw [Finset.fold_min_le]
          refine Or.inr ⟨⟨k.val - 3072, by omega⟩, Finset.mem_univ _, le_of_eq ((h3 _).trans (congrArg f (Fin.ext ?_)))⟩
          show 3072 + (k.val - 3072) = k.val
          omega
  · have below : ∀ (g : Fin 1024 → EReal) (o : Nat) (ho : o + 1024 ≤ 4096)
        (hg : ∀ l : Fin 1024, g l = f ⟨o + l.val, by have := l.isLt; omega⟩),
        Finset.univ.fold min ⊤ f ≤ Finset.univ.fold min ⊤ g := by
      intro g o ho hg
      rw [Finset.le_fold_min]
      refine ⟨le_top, fun l _ => ?_⟩
      rw [hg l, Finset.fold_min_le]
      exact Or.inr ⟨_, Finset.mem_univ _, le_rfl⟩
    refine le_min (le_min (le_min (le_min le_top ?_) ?_) ?_) ?_
    · exact below g0 0 (by omega) (fun l => (h0 l).trans (congrArg f (Fin.ext (by show l.val = 0 + l.val; omega))))
    · exact below g1 1024 (by omega) h1
    · exact below g2 2048 (by omega) h2
    · exact below g3 3072 (by omega) h3

/-- A lane minimum over one axis, read at a result index: the minimum, started from the accumulator's
    value, over that axis's coordinates. -/
theorem minReduce_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's minimum-reduction over one axis, read at a result index: the minimum, started from the
    initial value, over that axis's coordinates. -/
theorem hostMinReduce_single {φ : FTy} {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- The single-precision word with all exponent bits set and no fraction denotes the top element. -/
theorem ofBits_inf : Ideal.ofBits .f32 0x7F800000#32 = (⊤ : EReal) := by
  simp [Ideal.ofBits, Ideal.ieee]

end Cert.Nearest

end
-- ==== Proof.Spec.lean ====
/-
  The result both programs compute, as one function of the two argument arrays.

  `x` holds 32768 query points of the plane, one per row (two coordinates); `b` holds 4096
  boundary points, one per row.  Row `r` of the result keeps the query point in its first two
  columns, and in its third column the distance from the query point to the nearest boundary
  point: the square root of the least, over the 4096 boundary points, of the squared distance
  `(x₀ - b₀)² + (x₁ - b₁)²`.  Everything is read on the extended reals; the least value is taken
  from the top element, so it is the top element only for an empty family.
-/
import Idealize.ShloMosaic.PureOps.Ideal
import Idealize.ShloMosaic.Lib.ValueIdx

noncomputable section

namespace Cert.Nearest

open Idealize.ShloMosaic Idealize.ShloMosaic.ValueIdx

/-- The squared distance between the points `(p0, p1)` and `(q0, q1)`. -/
def sq2 (p0 p1 q0 q1 : EReal) : EReal := (p0 - q0) * (p0 - q0) + (p1 - q1) * (p1 - q1)

/-- The distance from query point `r` to the nearest of the 4096 boundary points. -/
def nearest (x : (⟨2, ![32768, 2]⟩ : Shape).Idx → EReal) (b : (⟨2, ![4096, 2]⟩ : Shape).Idx → EReal)
    (r : Fin 32768) : EReal :=
  Ideal.sqrt (Finset.univ.fold min ⊤ fun k : Fin 4096 =>
    sq2 (x (ix2 r (0 : Fin 2))) (x (ix2 r (1 : Fin 2))) (b (ix2 k (0 : Fin 2))) (b (ix2 k (1 : Fin 2))))

/-- The whole result: columns 0 and 1 the query point, column 2 its distance to the nearest boundary point. -/
def result (x : (⟨2, ![32768, 2]⟩ : Shape).Idx → EReal) (b : (⟨2, ![4096, 2]⟩ : Shape).Idx → EReal) :
    (⟨2, ![32768, 3]⟩ : Shape).Idx → EReal := fun j =>
  if h : (j 1).val < 2 then x (ix2 (j 0) (⟨(j 1).val, h⟩ : Fin 2)) else nearest x b (j 0)

end Cert.Nearest

end
-- ==== Proof.BodyValue.lean ====
/-
  What the kernel body leaves in its [512, 3] output block, as a function of the two blocks it loads:
  the [512, 2] block of query points and the whole [2, 4096] array of boundary points (one row per
  coordinate).

  The body walks the 4096 boundary points in four runs of 1024.  For one run it forms, for each of the
  512 query rows and each of the run's 1024 points, the squared distance
  `(x₀ - b₀)² + (x₁ - b₁)²`, and takes the least over the run (started from the top element).  The
  four least values are combined one after the other, again from the top element; the root of the
  outcome goes to column 2 of the block, and the query block itself to columns 0 and 1.  Since a
  minimum taken run by run is the minimum over all the points, column 2 of row `p` is the root of
  the least squared distance from query point `p` to the 4096 boundary points.
-/
import proofs.«175651_j8203387535652_2_alg».proof.Proof.Gen.KernelIdeal.Frame
import proofs.«175651_j8203387535652_2_alg».proof.Proof.LibSqrtMin
import proofs.«175651_j8203387535652_2_alg».proof.Proof.Spec
import Idealize.ShloMosaic.Lib.Pipeline.Value
import Idealize.ShloMosaic.Lib.ValueIdx
import Idealize.ShloMosaic.Lib.ValueLayout
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.ValueIdx Cert.Nearest

/-! ## Two layout readings -/

section Layout
variable {α : Type}

/-- A column `[a]` recast as `[a, 1]` reads, at `(p, q)`, the column at `p`. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) := by
  refine shapeCast_apply x h (ix2 p q) (ix1 p) ?_
  rw [Shape.rowMajor_val_one, Shape.rowMajor_val_two]
  show p.val = p.val * 1 + q.val
  have := q.isLt; omega

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One run of 1024 boundary points -/

variable {F : FTy → Type} [FloatOps F]

/-- The table of squared distances between the 512 query rows (coordinates `v1`, `v2`, one column each)
    and the 1024 boundary points of one run (`v`: row 0 their first coordinates, row 1 their second). -/
def sqd (v1 v2 : FVec F S512x1 .f32) (v : Vec F S2x1024 .f32) : FVec F S512x1024 .f32 :=
  addf
    (mulf
      (subf (broadcastTo S512x1024 v1 broadcasts_S512x1_S512x1024)
        (broadcastTo S512x1024 (extractStridedSlice S1x1024 ![0, 0] (shapeCast S2x1024 v shapeCasts_S2x1024_S2x1024) slices_S2x1024_o0_0_S1x1024) broadcasts_S1x1024_S512x1024))
      (subf (broadcastTo S512x1024 v1 broadcasts_S512x1_S512x1024)
        (broadcastTo S512x1024 (extractStridedSlice S1x1024 ![0, 0] (shapeCast S2x1024 v shapeCasts_S2x1024_S2x1024) slices_S2x1024_o0_0_S1x1024) broadcasts_S1x1024_S512x1024)))
    (mulf
      (subf (broadcastTo S512x1024 v2 broadcasts_S512x1_S512x1024)
        (broadcastTo S512x1024 (extractStridedSlice S1x1024 ![1, 0] (shapeCast S2x1024 v shapeCasts_S2x1024_S2x1024) slices_S2x1024_o1_0_S1x1024) broadcasts_S1x1024_S512x1024))
      (subf (broadcastTo S512x1024 v2 broadcasts_S512x1_S512x1024)
        (broadcastTo S512x1024 (extractStridedSlice S1x1024 ![1, 0] (shapeCast S2x1024 v shapeCasts_S2x1024_S2x1024) slices_S2x1024_o1_0_S1x1024) broadcasts_S1x1024_S512x1024)))

/-- For each of the 512 query rows the least squared distance to the 1024 boundary points of one run,
    taken from the top element. -/
def chunk (v1 v2 : FVec F S512x1 .f32) (v : Vec F S2x1024 .f32) : FVec F S512x1 .f32 :=
  shapeCast S512x1 (multiReduction .minimumf [1] S512 (sqd v1 v2 v) 0x7F800000#32 reduces_S512x1024_S512 (.inl rfl) rfl)
    shapeCasts_S512_S512x1

/-- The body's last payload: the root of the running least value after the third and fourth runs. -/
theorem pay1_eq (v1 v2 v41 : FVec F S512x1 .f32) (v45 v64 : Vec F S2x1024 .f32) :
    k0_pay1 v1 v2 v41 v45 v64 = sqrt (minimumf (minimumf v41 (chunk v1 v2 v45)) (chunk v1 v2 v64)) := rfl

/-- The running least value after the first and second runs, started from the top element. -/
theorem pay4_eq (v0 : Vec F S512x2 .f32) (v7 v26 : Vec F S2x1024 .f32) :
    k0_pay4 v0 v7 v26
      = minimumf (minimumf (broadcast S512x1 (Scalar.ofBits .f32 0x7F800000#32)) (chunk (k0_pay2 v0) (k0_pay3 v0) v7))
          (chunk (k0_pay2 v0) (k0_pay3 v0) v26) := rfl

/-- The table read at a row and a point of the run: the squared distance between the two points. -/
theorem sqd_apply (v1 v2 : FVec Ideal S512x1 .f32) (v : Vec Ideal S2x1024 .f32) (p : Fin 512) (l : Fin 1024) :
    sqd (F := Ideal) v1 v2 v (ix2 p l)
      = sq2 (v1 (ix2 p (0 : Fin 1))) (v2 (ix2 p (0 : Fin 1))) (v (ix2 (0 : Fin 2) l)) (v (ix2 (1 : Fin 2) l)) := by
  unfold sqd
  rw [addf_apply, mulf_apply, mulf_apply, subf_apply, subf_apply,
    broadcastTo_a1_ab_apply v1, broadcastTo_a1_ab_apply v2,
    broadcastTo_1b_ab_apply, broadcastTo_1b_ab_apply, shapeCast_self,
    slice2_axis0_apply 0 v _ (0 : Fin 1) l (0 : Fin 2) rfl,
    slice2_axis0_apply 1 v _ (0 : Fin 1) l (1 : Fin 2) rfl]
  rfl

/-- One run read at a row: the least, from the top element, of the squared distances to the run's points. -/
theorem chunk_apply (v1 v2 : FVec Ideal S512x1 .f32) (v : Vec Ideal S2x1024 .f32) (p : Fin 512) (q : Fin 1) :
    chunk (F := Ideal) v1 v2 v (ix2 p q)
      = Finset.univ.fold min ⊤ (fun l : Fin 1024 =>
          sq2 (v1 (ix2 p (0 : Fin 1))) (v2 (ix2 p (0 : Fin 1))) (v (ix2 (0 : Fin 2) l)) (v (ix2 (1 : Fin 2) l))) := by
  unfold chunk
  refine (shapeCast_a_a1_apply _ shapeCasts_S512_S512x1 p q).trans ?_
  refine (minReduce_single _ _ reduces_S512x1024_S512 _ _ (ix1 p)).trans ?_
  rw [Ideal.ofBits_def, ofBits_inf]
  refine Finset.fold_congr fun (l : Fin 1024) _ => ?_
  have hl : reduces_S512x1024_S512.lift (ix1 p) l = (ix2 p l : S512x1024.Idx) := by
    funext ax; apply Fin.ext
    match ax with
    | ⟨0, _⟩ => rfl
    | ⟨1, _⟩ => rfl
  exact (congrArg (sqd v1 v2 v) hl).trans (sqd_apply v1 v2 v p l)

/-! ## The block the body leaves -/

/-- The root of a vector read at an index is the root of its entry. -/
theorem sqrt_apply {s : Shape} {φ : FTy} (a : FVec Ideal s φ) (i : s.Idx) : sqrt a i = Ideal.sqrt (a i) := rfl

/-- The first coordinates of the query block, as a column. -/
theorem pay2_apply (x0 : Vec Ideal S512x2 .f32) (p : Fin 512) :
    k0_pay2 (F := Ideal) x0 (ix2 p (0 : Fin 1)) = x0 (ix2 p (0 : Fin 2)) := by
  unfold k0_pay2
  exact slice2_axis1_apply 0 x0 _ p (0 : Fin 1) (0 : Fin 2) rfl

/-- The second coordinates of the query block, as a column. -/
theorem pay3_apply (x0 : Vec Ideal S512x2 .f32) (p : Fin 512) :
    k0_pay3 (F := Ideal) x0 (ix2 p (0 : Fin 1)) = x0 (ix2 p (1 : Fin 2)) := by
  unfold k0_pay3
  exact slice2_axis1_apply 1 x0 _ p (0 : Fin 1) (1 : Fin 2) rfl

/-- COLUMN 2: when the four loaded runs `w0 … w3` are the four quarters of the boundary array `x1`, the
    payload at row `p` is the root of the least squared distance from query point `p` to all 4096 points:
    the four runs' least values, combined from the top element, are the least value over the whole array. -/
theorem col2_apply (x0 : Vec Ideal S512x2 .f32) (x1 : Vec Ideal S2x4096 .f32) (w0 w1 w2 w3 : Vec Ideal S2x1024 .f32)
    (hw0 : ∀ (a : Fin 2) (l : Fin 1024), w0 (ix2 a l) = x1 (ix2 a (⟨l.val, by have := l.isLt; omega⟩ : Fin 4096)))
    (hw1 : ∀ (a : Fin 2) (l : Fin 1024), w1 (ix2 a l) = x1 (ix2 a (⟨1024 + l.val, by have := l.isLt; omega⟩ : Fin 4096)))
    (hw2 : ∀ (a : Fin 2) (l : Fin 1024), w2 (ix2 a l) = x1 (ix2 a (⟨2048 + l.val, by have := l.isLt; omega⟩ : Fin 4096)))
    (hw3 : ∀ (a : Fin 2) (l : Fin 1024), w3 (ix2 a l) = x1 (ix2 a (⟨3072 + l.val, by have := l.isLt; omega⟩ : Fin 4096)))
    (p : Fin 512) (q : Fin 1) :
    k0_pay1 (F := Ideal) (k0_pay2 x0) (k0_pay3 x0) (k0_pay4 x0 w0 w1) w2 w3 (ix2 p q)
      = Ideal.sqrt (Finset.univ.fold min ⊤ fun k : Fin 4096 =>
          sq2 (x0 (ix2 p (0 : Fin 2))) (x0 (ix2 p (1 : Fin 2))) (x1 (ix2 (0 : Fin 2) k)) (x1 (ix2 (1 : Fin 2) k))) := by
  rw [pay1_eq, pay4_eq, sqrt_apply, minimumf_apply, minimumf_apply, minimumf_apply, minimumf_apply, broadcast_apply,
    Ideal.ofBits_def, ofBits_inf, chunk_apply, chunk_apply, chunk_apply, chunk_apply, pay2_apply, pay3_apply]
  refine congrArg Ideal.sqrt (fold_min_four _ _ _ _ _ (fun l => ?_) (fun l => ?_) (fun l => ?_) (fun l => ?_))
  · rw [hw0, hw0]
  · rw [hw1, hw1]
  · rw [hw2, hw2]
  · rw [hw3, hw3]

/-- What the body leaves in its [512, 3] block, from the query block `x0` and the boundary array `x1`:
    columns 0 and 1 the query block, column 2 the distance to the nearest boundary point. -/
def blockFn (x0 : Vec Ideal S512x2 .f32) (x1 : Vec Ideal S2x4096 .f32) : S512x3.Idx → EReal := fun y =>
  if h : (y 1).val < 2 then x0 (ix2 (y 0) (⟨(y 1).val, h⟩ : Fin 2))
  else Ideal.sqrt (Finset.univ.fold min ⊤ fun k : Fin 4096 =>
    sq2 (x0 (ix2 (y 0) (0 : Fin 2))) (x0 (ix2 (y 0) (1 : Fin 2))) (x1 (ix2 (0 : Fin 2) k)) (x1 (ix2 (1 : Fin 2) k)))

theorem hz2 : (![0, 0] : Fin 2 → Nat) = fun _ => 0 := funext fun a => by fin_cases a <;> rfl

/-- The pieces the body's two stores leave (the [512, 1] column at column 2, the [512, 2] slab at column 0)
    are both restrictions of the block function, and together they tile the block: the block IS that function. -/
theorem out_eq (c : Dev nD) (i : grid0.Coords) (a1 : Memref sig .tc .vmem S512x2 .f32) (h1 : a1.IsWhole)
    (a2 : Memref sig .tc .vmem S2x4096 .f32) (h2 : a2.IsWhole) (a3 : Memref sig .tc .vmem S512x3 .f32) (h3 : a3.IsWhole)
    (x0 : Vec Ideal S512x2 .f32) (x1 : Vec Ideal S2x4096 .f32) :
    out0_A_2 (F := Ideal) c i a1 h1 a2 h2 a3 h3 x0 x1 = blockFn x0 x1 := by
  unfold out0_A_2
  rw [View.read_writes_eq_canon _ _ _ (cover0_A_2 c i a1 h1 a2 h2 a3 h3 x0 x1)]
  funext y
  refine View.canon_apply_of_pieces (blockFn x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S512x2) hz2]
  intro pc hpc x
  simp only [List.mem_cons, List.mem_singleton, List.not_mem_nil, or_false] at hpc
  rcases hpc with rfl | rfl
  · -- the column at column 2
    obtain ⟨p, q, rfl⟩ : ∃ (p : Fin 512) (q : Fin 1), x = ix2 p q := ⟨x 0, x 1, eq_ix2 x⟩
    have hcol : ¬ ((((Rect.unit (s := S512x3) ![0, 2] ![512, 1] inb_S512x3_S512x1_0_2).emb (ix2 p q)) 1).val < 2) := by
      show ¬ (2 + 1 * q.val < 2)
      omega
    have hrow : ((Rect.unit (s := S512x3) ![0, 2] ![512, 1] inb_S512x3_S512x1_0_2).emb (ix2 p q)) 0 = p := by
      apply Fin.ext
      show 0 + 1 * p.val = p.val
      omega
    unfold blockFn
    rw [dif_neg hcol, hrow]
    refine col2_apply x0 x1 _ _ _ _ (fun a l => ?_) (fun a l => ?_) (fun a l => ?_) (fun a l => ?_) p q
    all_goals
      refine congrArg x1 (funext fun ax => Fin.ext ?_)
      match ax with
      | ⟨0, _⟩ => show 0 + 1 * a.val = a.val; omega
      | ⟨1, _⟩ => first
        | (show 0 + 1 * l.val = l.val; omega)
        | (show 1024 + 1 * l.val = 1024 + l.val; omega)
        | (show 2048 + 1 * l.val = 2048 + l.val; omega)
        | (show 3072 + 1 * l.val = 3072 + l.val; omega)
  · -- the slab at columns 0 and 1
    obtain ⟨p, q, rfl⟩ : ∃ (p : Fin 512) (q : Fin 2), x = ix2 p q := ⟨x 0, x 1, eq_ix2 x⟩
    have hcol : (((Rect.unit (s := S512x3) ![0, 0] ![512, 2] inb_S512x3_S512x2_0_0).emb (ix2 p q)) 1).val < 2 := by
      show 0 + 1 * q.val < 2
      have := q.isLt; omega
    unfold blockFn
    rw [dif_pos hcol]
    refine congrArg x0 (funext fun ax => Fin.ext ?_)
    match ax with
    | ⟨0, _⟩ => show p.val = 0 + 1 * p.val; omega
    | ⟨1, _⟩ => show q.val = 0 + 1 * q.val; omega

end Cert.KernelIdeal.Body

end
-- ==== Proof.KernelValue.lean ====
/-
  The kernel's result array after its run is the result function of the two argument arrays.

  The grid has 64 points.  At point `t` the kernel's first window holds rows `512 t … 512 t + 511` of
  the query array, its second window the whole boundary array transposed (row 0 the first coordinates,
  row 1 the second: the host transposes the [4096, 2] argument before the call), and its output window
  writes rows `512 t … 512 t + 511` of the [32768, 3] result.  What the body leaves in the output block
  (BodyValue) is therefore, row by row, the result function at row `512 t + p`.  Every row `r` of the
  result lies in the block of point `r / 512`, and every point writes its block back: the blocks cover
  the array, so the array after the run is the result function everywhere.
-/
import proofs.«175651_j8203387535652_2_alg».proof.Proof.Gen.KernelIdeal.Value
import proofs.«175651_j8203387535652_2_alg».proof.Proof.BodyValue
import proofs.«175651_j8203387535652_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Cert.KernelIdeal.Body Idealize.ShloMosaic Idealize.ShloMosaic.TcCoe Idealize.SL.Sem
open Idealize.ShloMosaic.StableHlo
open Idealize.ShloMosaic.Pipeline (Dat)
open Idealize.ShloMosaic.ValueIdx Cert.Nearest

variable (m : (ℓ : Loc nD τ sig) → Buf (Elt Ideal) ℓ) (ρ : Dev nD → PrngReg)

/-- The block indices of the three windows at every grid point: the query window and the output window
    are at block row `t`, the boundary window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the region finds in the boundary window's array: the boundary argument transposed. -/
theorem V_transposed (c : Dev nD) :
    (V m c main_v0 : S2x4096.Idx → EReal)
      = transpose S2x4096 [1, 0] (m ((c : Thread nD τ).loc main_arg1)) transposes_S4096x2_S2x4096_1_0 := by
  dsimp only [Gen.V, Gen.hostOps0]; after_results

/-- The query window's block at point `t`, read at row `p`: row `512 t + p` of the query argument. -/
theorem queryBlock_apply (c : Dev nD) (t : Fin cfg0.N) (p : Fin 512) (a : Fin 2) (r : Fin 32768)
    (hr : r.val = t.val * 512 + p.val) :
    (iblk m c 0 t : S512x2.Idx → EReal) (ix2 p a) = m ((c : Thread nD τ).loc main_arg0) (ix2 r a) := by
  obtain ⟨e0, e1, -⟩ := idx_facts t
  unfold iblk
  rw [View.read_apply]
  show V m c main_arg0 _ = _
  rw [V_main_arg0]
  refine congrArg _ (funext fun ax => Fin.ext ?_)
  match ax with
  | ⟨0, _⟩ => show win0_0.index t (0 : Fin 2) * 512 + 1 * p.val = r.val; rw [e0]; omega
  | ⟨1, _⟩ => show win0_0.index t (1 : Fin 2) * 2 + 1 * a.val = a.val; rw [e1]; omega

/-- The boundary window's block at any point, read at coordinate `a` of boundary point `k`: that
    coordinate of row `k` of the boundary argument. -/
theorem boundaryBlock_apply (c : Dev nD) (t : Fin cfg0.N) (a : Fin 2) (k : Fin 4096) :
    (iblk m c 1 t : S2x4096.Idx → EReal) (ix2 a k) = m ((c : Thread nD τ).loc main_arg1) (ix2 k a) := by
  obtain ⟨-, -, e2, e3, -⟩ := idx_facts t
  unfold iblk
  rw [View.read_apply]
  show V m c main_v0 _ = _
  have hidx : (((cfg0.win 1).blk t).view.emb (ix2 a k) : S2x4096.Idx) = ix2 a k := by
    funext ax; apply Fin.ext
    match ax with
    | ⟨0, _⟩ => show win0_1.index t (0 : Fin 2) * 2 + 1 * a.val = a.val; rw [e2]; omega
    | ⟨1, _⟩ => show win0_1.index t (1 : Fin 2) * 4096 + 1 * k.val = k.val; rw [e3]; omega
  rw [hidx, V_transposed]
  exact transpose_ix2_apply _ transposes_S4096x2_S2x4096_1_0 a k

/-- A block's function at a block index is the result function at the array index the block places it at. -/
theorem block_eq (X : S32768x2.Idx → EReal) (B : S4096x2.Idx → EReal) (x0 : S512x2.Idx → EReal) (bt : S2x4096.Idx → EReal)
    (n : Nat) (hx0 : ∀ (p : Fin 512) (a : Fin 2) (r : Fin 32768), r.val = n * 512 + p.val → x0 (ix2 p a) = X (ix2 r a))
    (hbt : ∀ (a : Fin 2) (k : Fin 4096), bt (ix2 a k) = B (ix2 k a))
    (y : S512x3.Idx) (i : S32768x3.Idx) (hi0 : (i 0).val = n * 512 + (y 0).val) (hi1 : (i 1).val = (y 1).val) :
    blockFn x0 bt y = result X B i := by
  unfold blockFn result
  by_cases h : (y 1).val < 2
  · have h' : (i 1).val < 2 := by omega
    rw [dif_pos h, dif_pos h']
    refine (hx0 (y 0) ⟨(y 1).val, h⟩ (i 0) hi0).trans (congrArg X (funext fun ax => Fin.ext ?_))
    match ax with
    | ⟨0, _⟩ => rfl
    | ⟨1, _⟩ => exact hi1.symm
  · have h' : ¬ (i 1).val < 2 := by omega
    rw [dif_neg h, dif_neg h']
    unfold nearest
    rw [hx0 (y 0) (0 : Fin 2) (i 0) hi0, hx0 (y 0) (1 : Fin 2) (i 0) hi0]
    refine congrArg Ideal.sqrt (Finset.fold_congr fun k _ => ?_)
    rw [hbt, hbt]

/-- WHAT POINT `t` WRITES BACK is block `t` of the result function of the two arguments. -/
theorem flushed_eq (c : Dev nD) (t : Fin cfg0.N) :
    (dats m 0 c).flushed 2 t
      = ((cfg0.win 2).blk t).view.read (Elt Ideal)
          (result (m ((c : Thread nD τ).loc main_arg0)) (m ((c : Thread nD τ).loc main_arg1))) := by
  refine (Value.flushed2_A m c t).trans ?_
  refine (congrArg ((cfg0.win 2).cut (grid0.coords t))
    (out_eq c (grid0.coords t) (ms0_0 t) (hs0_0 t) (ms0_1 t) (hs0_1 t) (ms0_2 t) (hs0_2 t) (iblk m c 0 t) (iblk m c 1 t))).trans ?_
  obtain ⟨-, -, -, -, e4, e5⟩ := idx_facts t
  funext y
  show blockFn (iblk m c 0 t) (iblk m c 1 t) y = result _ _ (((cfg0.win 2).blk t).view.emb y)
  refine block_eq _ _ _ _ t.val (fun p a r hr => queryBlock_apply m c t p a r hr) (fun a k => boundaryBlock_apply m c t a k) y _ ?_ ?_
  · show win0_2.index t (0 : Fin 2) * 512 + 1 * (y 0).val = t.val * 512 + (y 0).val
    rw [e4]; omega
  · show win0_2.index t (1 : Fin 2) * 3 + 1 * (y 1).val = (y 1).val
    rw [e5]; omega

/-- An index of the result array is in point `t`'s block iff each coordinate is in the block's range. -/
theorem mem_blk (t : Fin cfg0.N) (i : S32768x3.Idx) :
    i ∈ ((cfg0.win 2).blk t).view.set ↔ ∀ a : Fin 2, win0_2.index t a * S512x3.size a ≤ (i a).val ∧ (i a).val < win0_2.index t a * S512x3.size a + S512x3.size a := by
  show i ∈ ((View.whole main_v1).slice (win0_2.rect t)).set ↔ _
  rw [View.set_slice_whole, Rect.mem_set_unit]
  exact Iff.rfl

/-- Every index of the result array lies in the block of the point its row falls in, and that point writes back. -/
theorem cover (i : S32768x3.Idx) :
    ∃ t : Fin cfg0.N, (cfg0.win 2).flush t = true ∧ i ∈ ((cfg0.win 2).blk t).view.set := by
  have hN : cfg0.N = 64 := N_0
  have h0 : (i 0).val < 32768 := (i 0).isLt
  have h1 : (i 1).val < 3 := (i 1).isLt
  have ht : (i 0).val / 512 < cfg0.N := by rw [hN]; omega
  obtain ⟨-, -, -, -, e4, e5⟩ := idx_facts ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 3 ≤ (i 1).val ∧ (i 1).val < win0_2.index ⟨(i 0).val / 512, ht⟩ (1 : Fin 2) * 3 + 3
    rw [e5]; omega

/-- THE ARRAY after the run: the result function of the two arguments. -/
theorem final (c : Dev nD) :
    (dats m 0 c).arrAt 2 cfg0.N
      = result (m ((c : Thread nD τ).loc main_arg0)) (m ((c : Thread nD τ).loc main_arg1)) :=
  (dats m 0 c).arrAt_eq_of_cover 2 _ (fun t _ => flushed_eq m c t) cover

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference computes the result function of the two argument arrays, index by index.

  The reference forms, for every query point `r` and boundary point `k`, the two coordinate
  differences, squares them and adds the two squares to zero: the squared distance.  It takes the root
  of each, then for every query point the least root over the 4096 boundary points (from the top
  element), and lays that column beside the query points.  Since the root is monotone, the least of the
  roots is the root of the least squared distance.
-/
import proofs.«175651_j8203387535652_2_alg».proof.Proof.Gen.ReferenceIdeal.Read
import proofs.«175651_j8203387535652_2_alg».proof.Proof.LibSqrtMin
import proofs.«175651_j8203387535652_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Nearest

/-- The stage after the sum over the two coordinates, at query point `r` and boundary point `k`:
    zero plus the two squared differences, the squared distance. -/
theorem sqdist_apply (x0 : S32768x2.Idx → EReal) (x1 : S4096x2.Idx → EReal) (r : Fin 32768) (k : Fin 4096) :
    val_main_v6 (F := Ideal) x0 x1 (ix2 r k)
      = sq2 (x0 (ix2 r (0 : Fin 2))) (x0 (ix2 r (1 : Fin 2))) (x1 (ix2 k (0 : Fin 2))) (x1 (ix2 k (1 : Fin 2))) := by
  have e0 : idx_main_v0 (idx_main_v2 (idx_main_v6 (ix2 r k) (0 : Fin 2))) = ix2 r (0 : Fin 2) :=
    funext fun a => Fin.ext (by match a with | ⟨0, _⟩ => rfl | ⟨1, _⟩ => rfl)
  have e1 : idx_main_v0 (idx_main_v2 (idx_main_v6 (ix2 r k) (1 : Fin 2))) = ix2 r (1 : Fin 2) :=
    funext fun a => Fin.ext (by match a with | ⟨0, _⟩ => rfl | ⟨1, _⟩ => rfl)
  have f0 : idx_main_v1 (idx_main_v3 (idx_main_v6 (ix2 r k) (0 : Fin 2))) = ix2 k (0 : Fin 2) :=
    funext fun a => Fin.ext (by match a with | ⟨0, _⟩ => rfl | ⟨1, _⟩ => rfl)
  have f1 : idx_main_v1 (idx_main_v3 (idx_main_v6 (ix2 r k) (1 : Fin 2))) = ix2 k (1 : Fin 2) :=
    funext fun a => Fin.ext (by match a with | ⟨0, _⟩ => rfl | ⟨1, _⟩ => rfl)
  rw [val_main_v6_apply, Fin.sum_univ_two, val_main_cst_apply, Ideal.ofBits_def, Ideal.ofBits_zero_f32, zero_add,
    val_main_v5_apply, val_main_v5_apply, val_main_v4_apply, val_main_v4_apply,
    val_main_v2_apply, val_main_v2_apply, val_main_v3_apply, val_main_v3_apply,
    val_main_v0_apply, val_main_v0_apply, val_main_v1_apply, val_main_v1_apply, e0, e1, f0, f1]
  rfl

/-- The reduced shape fact in the form that names the inserted coordinate. -/
theorem reduces_rows : S32768x4096.Reduces [1] S32768 := by decide

/-- The least root over the boundary points, at query point `r`, is the distance to the nearest one. -/
theorem nearest_apply (x0 : S32768x2.Idx → EReal) (x1 : S4096x2.Idx → EReal) (r : Fin 32768) :
    val_main_v8 (F := Ideal) x0 x1 (ix1 r) = nearest x0 x1 r := by
  unfold val_main_v8
  refine (hostMinReduce_single _ _ reducesTo_S32768x4096_S32768_d1 reduces_rows h_S_ (ix1 r)).trans ?_
  rw [val_main_cst_0_apply, Ideal.ofBits_def, ofBits_inf]
  unfold nearest
  rw [sqrt_fold_min]
  refine Finset.fold_congr fun (k : Fin 4096) _ => ?_
  have hl : reduces_rows.lift (ix1 r) k = (ix2 r k : S32768x4096.Idx) := by
    funext ax; apply Fin.ext
    match ax with
    | ⟨0, _⟩ => rfl
    | ⟨1, _⟩ => rfl
  refine (congrArg (val_main_v7 (F := Ideal) x0 x1) hl).trans ?_
  rw [val_main_v7_apply, Ideal.hostUnary_sqrt_def, sqdist_apply]

/-- THE REFERENCE IS THE RESULT FUNCTION: its last stage, the query points with the nearest distances laid
    beside them, index by index. -/
theorem ref_eq (x0 : S32768x2.Idx → EReal) (x1 : S4096x2.Idx → EReal) :
    val_main_v10 (F := Ideal) x0 x1 = result x0 x1 := by
  funext j
  unfold val_main_v10 result
  by_cases h : (j 1).val < 2
  · rw [dif_pos h]
    exact concatenate_pair_apply_left (1 : Fin 2) x0 _ concatenates_S32768x2_S32768x1_S32768x3_d1 j rfl
      (ix2 (j 0) (⟨(j 1).val, h⟩ : Fin 2)) (fun b => by match b with | ⟨0, _⟩ => rfl | ⟨1, _⟩ => rfl)
  · rw [dif_neg h]
    have hj : (j 1).val < 3 := (j 1).isLt
    refine (concatenate_pair_apply_right (t := S32768x3) (s₁ := S32768x2) (s₂ := S32768x1) (1 : Fin 2) x0
      (val_main_v9 (F := Ideal) x0 x1) concatenates_S32768x2_S32768x1_S32768x3_d1 j rfl rfl
      (ix2 (j 0) (0 : Fin 1)) (fun b hb => ?_) ?_).trans ?_
    · match b with
      | ⟨0, _⟩ => rfl
      | ⟨1, _⟩ => exact absurd rfl hb
    · show 0 + 2 = (j 1).val
      omega
    · have e9 : idx_main_v9 (ix2 (j 0) (0 : Fin 1)) = ix1 (j 0) :=
        funext fun a => Fin.ext (by match a with | ⟨0, _⟩ => rfl)
      rw [val_main_v9_apply, e9]
      exact nearest_apply x0 x1 (j 0)

end Cert.ReferenceIdeal.RefValue

end
-- ==== Proof.lean ====
/-
  The kernel and its reference compute the same array, on the extended reals.

  Arguments: 32768 query points of the plane (one per row, two coordinates) and 4096 boundary points.
  Result: a [32768, 3] array whose row `r` holds query point `r` in columns 0 and 1 and, in column 2, the
  distance from it to the nearest boundary point.

  The reference takes, for every pair of a query point and a boundary point, the root of the squared
  distance `(x₀ - b₀)² + (x₁ - b₁)²`, and then the least root over the boundary points.  The kernel works
  on 64 blocks of 512 query rows; for each block it walks the boundary points in four runs of 1024,
  keeps the least SQUARED distance (run by run, then across the runs), and takes ONE root per row at the
  end.  The two agree because

    * a minimum taken run by run, each run and the combination started from the top element, is the
      minimum over all 4096 points (an element is below either side exactly when it is below every
      squared distance), and
    * the extended-real root is monotone on the whole line, so the root of the least squared distance is
      the least of the roots.

  Neither step needs the inputs to be finite: only the order of the extended reals is used, and the
  squared distances are the same terms on both sides.

  The three frame claims are the generated frames (the reference's is its generated run with the result
  dropped); the idealization rewrote nothing, so its claim is trivial; the value claim sets the kernel's
  run (KernelValue: the result array is the result function of the arguments) beside the reference's
  (RefValue: its last stage is the same function).
-/
import proofs.«175651_j8203387535652_2_alg».proof.Defs
import proofs.«175651_j8203387535652_2_alg».proof.Proof.Gen.Kernel
import proofs.«175651_j8203387535652_2_alg».proof.Proof.Gen.Kernel.Skeleton
import proofs.«175651_j8203387535652_2_alg».proof.Proof.Gen.Kernel.Launch
import proofs.«175651_j8203387535652_2_alg».proof.Proof.Gen.Kernel.Points
import proofs.«175651_j8203387535652_2_alg».proof.Proof.Gen.Kernel.Frame
import proofs.«175651_j8203387535652_2_alg».proof.Proof.Gen.KernelIdeal
import proofs.«175651_j8203387535652_2_alg».proof.Proof.Gen.KernelIdeal.Skeleton
import proofs.«175651_j8203387535652_2_alg».proof.Proof.Gen.KernelIdeal.Launch
import proofs.«175651_j8203387535652_2_alg».proof.Proof.Gen.KernelIdeal.Points
import proofs.«175651_j8203387535652_2_alg».proof.Proof.Gen.KernelIdeal.Frame
import proofs.«175651_j8203387535652_2_alg».proof.Proof.Gen.ReferenceIdeal
import proofs.«175651_j8203387535652_2_alg».proof.Proof.Gen.Pre_finite_inputs
import proofs.«175651_j8203387535652_2_alg».proof.Proof.Gen.KernelIdeal.Value
import proofs.«175651_j8203387535652_2_alg».proof.Proof.Gen.ReferenceIdeal.Run
import proofs.«175651_j8203387535652_2_alg».proof.Proof.Gen.ReferenceIdeal.Read
import proofs.«175651_j8203387535652_2_alg».proof.Proof.KernelValue
import proofs.«175651_j8203387535652_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the result function of those arguments in their result
    array: the kernel by its run read block by block, the reference by its stages read index by index. -/
theorem algebraic : Cert.algebraic_KernelIdeal_ReferenceIdeal := by
  intro m ρ m' ρ' _ hagree
  refine ⟨fun c => Cert.Nearest.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
